-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S8x4096 .f32) (main_arg4 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S16384x4096, .f32⟩
  | .hbm, ⟨11, _⟩ => ⟨S16384x4096, .bf16⟩
  | .hbm, ⟨12, _⟩ => ⟨S4096x4096, .bf16⟩
  | .hbm, ⟨13, _⟩ => ⟨S1x4096, .f32⟩
  | .hbm, ⟨14, _⟩ => ⟨S16384x4096, .f32⟩
  | .hbm, ⟨15, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S4096x8_S8x4096_S4096x4096_1_0_0_1_n_n_wf : DotDims.WF S4096x8 S8x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S4x4096x8 : Shape := ⟨3, ![4, 4096, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x8, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Pieces.lean ====
/-
  What one run of the kernel body leaves behind, per control case, as plain functions of what it loaded.

  The body keeps a running [1024, 1024] accumulator in a scratch buffer across the grid's last axis (the axis that
  walks the contracted dimension in bands of 1024). In every case it adds to the accumulator the product of the
  current band of the left operand's row tile with the current band of the right operand's row tile:
    * first band (case A): the accumulator is first set to zero, so it ends at  0 + tileₓ · tile_wᵀ;
    * middle bands (case B): it ends at  acc + tileₓ · tile_wᵀ  of what the band before left;
    * last band (case C): the same update, and the output tile is the updated accumulator plus the bias row.
  Each statement holds for every interpretation of the float operations.
-/
import proofs.«163850_j44152263803472_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Middle bands: the accumulator ends at the band's update of what it held. -/
theorem acc_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- First band: the accumulator ends at the band's update of the zero tile. -/
theorem acc_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Last band: the accumulator ends at the band's update of what it held; -/
theorem acc_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output tile is that updated accumulator plus the bias row. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.LibDotRows.lean ====
/-
  A product of two matrices that contracts the SECOND axis of both — out (p, q) = ∑ k, lhs (p, k) · rhs (q, k), the
  left matrix times the transpose of the right one — read entry by entry on the extended reals.

  On the matrix unit, accumulated into the zero array, entry (p, q) of such a product of an [a, K] matrix with a
  [b, K] matrix is the sum over the contracted position k < K of the row's entry times the other row's entry. The
  dimension numbers enter only through four facts about where the contraction reads its operands, each decided by
  unfolding for a literal record: it contracts axis 1 of both operands, and carries the output's row to the left
  operand's row and the output's column to the right operand's row. No finiteness is used.
-/
import Idealize.ShloMosaic.PureOps.Ideal.Laws
import Idealize.ShloMosaic.Lib.ValueIdx

noncomputable section

namespace Idealize.ShloMosaic.DotRows

open Idealize.ShloMosaic Idealize.ShloMosaic.ValueIdx

/-- Entry (p, q) of an [a, K] × [b, K] product contracting both second axes, into the zero accumulator, is the sum
    over the contracted position of the left row's entry times the right row's entry. -/
theorem matmul_zero_rows_ix2 {a K b : ℕ} {φ₁ φ₂ : FTy}
    (d : DotDims (⟨2, ![a, K]⟩ : Shape) (⟨2, ![b, K]⟩ : Shape) (⟨2, ![a, b]⟩ : Shape))
    (hr : d.contr.rank = 1) (hs : d.contr.size ⟨0, by omega⟩ = K)
    (hlc : d.lhsContracting = [1]) (hrc : d.rhsContracting = [1])
    (hl0 : ∀ (j : (⟨2, ![a, b]⟩ : Shape).Idx) (q : d.contr.Idx), (d.lhsIdx j q 0).val = (j 0).val)
    (hr0 : ∀ (j : (⟨2, ![a, b]⟩ : Shape).Idx) (q : d.contr.Idx), (d.rhsIdx j q 0).val = (j 1).val)
    (prec : Option ContractPrecision)
    (lhs : FVec Ideal (⟨2, ![a, K]⟩ : Shape) φ₁) (rhs : FVec Ideal (⟨2, ![b, K]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 q k := funext fun ax => Fin.ext (by
    match ax with
    | ⟨0, _⟩ => exact hr0 _ _
    | ⟨1, _⟩ => exact (d.rhsIdx_val_of_single hrc _ _).trans hk)
  rw [el, er]

end Idealize.ShloMosaic.DotRows

end
-- ==== Proof.Payloads.lean ====
/-
  The body's three stored values read at one entry, on the extended reals.

    * the reset value is the zero tile: every entry is 0;
    * the band update at entry (p, q) is  acc (p, q) + ∑ k < 1024, tileₓ (p, k) · tile_w (q, k):  the matrix unit's
      product of the two [1024, 1024] tiles contracts the second axis of both (row p of one against row q of the
      other), it is accumulated into zero, and the running accumulator is added in front of it;
    * the finished tile at (p, q) is the accumulator's entry plus the bias row's entry q, the [1, 1024] row being
      repeated down the 1024 rows.
  A change of float format is the identity on the extended reals, so the bf16 tiles are read as they are.
-/
import proofs.«163850_j44152263803472_2_alg».proof.Proof.Gen.KernelIdeal.Skeleton
import proofs.«163850_j44152263803472_2_alg».proof.Proof.LibDotRows
import Idealize.ShloMosaic.Lib.Pipeline.Value
import Idealize.ShloMosaic.Lib.ValueIdx
import Idealize.ShloMosaic.Lib.ValueLayout

noncomputable section

namespace Cert.KernelIdeal.Payloads

open Idealize.ShloMosaic Idealize.ShloMosaic.ValueIdx
open Cert.KernelIdeal Cert.KernelIdeal.Gen

/-- Where the tile product reads its left operand's row: the output's row. -/
theorem lhs_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- Where it reads its right operand's row: the output's column. -/
theorem rhs_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The reset value: every entry of the zero tile is 0. -/
theorem reset_apply (j : S1024x1024.Idx) : k0_pay1 (F := Ideal) j = (0 : EReal) := by
  unfold k0_pay1
  rw [shapeCast_self]
  exact Ideal.ofBits_zero_f32

/-- The band update at an entry. -/
theorem update_apply (x0 x1 : Vec Ideal S1024x1024 .bf16) (acc : Vec Ideal S1024x1024 .f32) (p q : Fin 1024) :
    k0_pay2 (F := Ideal) x0 x1 acc (ix2 p q) = acc (ix2 p q) + ∑ k : Fin 1024, x0 (ix2 p k) * x1 (ix2 q k) := by
  unfold k0_pay2
  rw [shapeCast_self, shapeCast_self, shapeCast_self]
  exact congrArg (acc (ix2 p q) + ·)
    (DotRows.matmul_zero_rows_ix2 dot_S1024x1024_S1024x1024_S1024x1024_1_1_0_0_n_n rfl rfl rfl rfl lhs_row rhs_row none x0 x1 p q)

/-- The finished tile at an entry: the accumulator's entry plus the bias row's entry of that column. -/
theorem finish_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self]
  refine congrArg (acc (ix2 p q) + ·) ?_
  refine broadcastTo_apply b broadcasts_S1x1024_S1024x1024 (ix2 p q) (ix2 (0 : Fin 1) q) ?_
  intro a
  match a with
  | ⟨0, _⟩ => show (0 : ℕ) = if (1 : ℕ) = 1 then 0 else _; rw [if_pos rfl]
  | ⟨1, _⟩ => show q.val = if (1024 : ℕ) = 1 then 0 else q.val; rw [if_neg (by decide)]

end Cert.KernelIdeal.Payloads

end
-- ==== Proof.LowRankAlgebra.lean ====
/-
  The algebra that joins the two programs, over finite real data.

  * A finite sum of reals, read in the extended reals, is the sum of the terms read there.
  * A sum over 4096 positions is the sum over its four consecutive bands of 1024, taken in order from zero:
    (((0 + S₀) + S₁) + S₂) + S₃. This is regrouping in a commutative monoid: no finiteness.
  * THE LOW-RANK LAW. For a row x, a row w of the base weight, the rank-r factors a (r rows) and b (r numbers) and a
    bias β, all real:
        ∑ᵢ xᵢ · (wᵢ + 1 · ∑ᵣ bᵣ · aᵣᵢ) + β  =  (∑ᵢ xᵢ · wᵢ + β) + (∑ᵣ (∑ᵢ xᵢ · aᵣᵢ) · bᵣ) · 1.
    Folding the low-rank update into the weight first, or applying it to the projected row afterwards, is
    distributivity of · over + and an exchange of the two finite sums. On the extended reals distributivity fails
    at the infinities, which is why the data are real here.
-/
import Idealize.ShloMosaic.PureOps.Ideal.Laws

noncomputable section

namespace Cert.LowRank

/-- A finite real sum read in the extended reals is the sum of its terms read there. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over `a + a + a + a` consecutive positions, cut into its four consecutive bands. -/
theorem sum_four_bands {M : Type} [AddCommMonoid M] {a n : ℕ} (hn : a + a + a + a = n) (f : Fin n → M) :
    ∑ i : Fin n, f i
      = (((∑ k : Fin a, f ⟨k.val, by omega⟩) + ∑ k : Fin a, f ⟨a + k.val, by omega⟩)
          + ∑ k : Fin a, f ⟨a + a + k.val, by omega⟩) + ∑ k : Fin a, f ⟨a + a + a + k.val, by omega⟩ := by
  subst hn
  rw [Fin.sum_univ_add, Fin.sum_univ_add, Fin.sum_univ_add]
  rfl

/-- Position `k` of band `j` (bands of 1024 inside 4096), wrapped so that it is defined for every `j`. -/
def band (j : ℕ) (k : Fin 1024) : Fin 4096 := ⟨(1024 * j + k.val) % 4096, Nat.mod_lt _ (by norm_num)⟩

theorem band_val (j : ℕ) (hj : j < 4) (k : Fin 1024) : (band j k).val = 1024 * j + k.val := by
  show (1024 * j + k.val) % 4096 = _
  have := k.isLt
  omega

/-- The four bands summed in order from zero are the whole sum. -/
theorem chain_bands {M : Type} [AddCommMonoid M] (f : Fin 4096 → M) :
    (((0 + ∑ k : Fin 1024, f (band 0 k)) + ∑ k : Fin 1024, f (band 1 k)) + ∑ k : Fin 1024, f (band 2 k))
        + ∑ k : Fin 1024, f (band 3 k) = ∑ i : Fin 4096, f i := by
  rw [sum_four_bands (a := 1024) (n := 4096) rfl f, zero_add]
  have e : ∀ (j : ℕ) (k : Fin 1024) (i : Fin 4096), j < 4 → i.val = 1024 * j + k.val → f (band j k) = f i :=
    fun j k i hj hi => congrArg f (Fin.ext ((band_val j hj k).trans hi.symm))
  refine congrArg₂ (· + ·) (congrArg₂ (· + ·) (congrArg₂ (· + ·) ?_ ?_) ?_) ?_
  · exact Finset.sum_congr rfl fun k _ => e 0 k _ (by norm_num) (by show k.val = 1024 * 0 + k.val; omega)
  · exact Finset.sum_congr rfl fun k _ => e 1 k _ (by norm_num) (by show 1024 + k.val = 1024 * 1 + k.val; omega)
  · exact Finset.sum_congr rfl fun k _ => e 2 k _ (by norm_num) (by show 1024 + 1024 + k.val = 1024 * 2 + k.val; omega)
  · exact Finset.sum_congr rfl fun k _ => e 3 k _ (by norm_num) (by show 1024 + 1024 + 1024 + k.val = 1024 * 3 + k.val; omega)

/-- THE LOW-RANK LAW over real data, stated in the extended reals. -/
theorem lowrank_law {ι ρ : Type} [Fintype ι] [Fintype ρ] (x w : ι → ℝ) (a : ρ → ι → ℝ) (b : ρ → ℝ) (β : ℝ) :
    (∑ i, (x i : EReal) * ((w i : EReal) + 1 * ∑ r, (b r : EReal) * (a r i : EReal))) + (β : EReal)
      = ((∑ i, (x i : EReal) * (w i : EReal)) + (β : EReal))
        + (∑ r, (∑ i, (x i : EReal) * (a r i : EReal)) * (b r : EReal)) * 1 := by
  simp only [one_mul, mul_one, ← EReal.coe_mul, ← coe_sum, ← EReal.coe_add]
  congr 1
  simp only [mul_add, Finset.sum_add_distrib, Finset.mul_sum, Finset.sum_mul]
  rw [Finset.sum_comm]
  have e : ∀ r i, x i * (b r * a r i) = x i * a r i * b r := fun r i => by ring
  simp only [e]
  ring

end Cert.LowRank

end
-- ==== Proof.Accumulate.lean ====
/-
  The accumulator across the grid, entry by entry.

  The grid has 16 × 4 × 4 points, the last axis fastest: point n works on row tile n / 16 of the activations, on row
  tile (n / 4) % 4 of the folded weight (a column tile of the output), and on band n % 4 of the contracted axis. Over
  the four consecutive points of one output tile the scratch accumulator holds, at entry (p, q), the partial sums

      0 + D₀,   (0 + D₀) + D₁,   ((0 + D₀) + D₁) + D₂,   (((0 + D₀) + D₁) + D₂) + D₃

  where Dⱼ is the product of band j of the activations' row with band j of the weight's row. This is proved by
  induction on the point — the first band starts from the zero tile, every other band adds to what the point
  before left —, and at the last band the output tile is the full chain plus the bias entry of that column.
-/
import proofs.«163850_j44152263803472_2_alg».proof.Proof.Gen.KernelIdeal.Frame
import proofs.«163850_j44152263803472_2_alg».proof.Proof.Pieces
import proofs.«163850_j44152263803472_2_alg».proof.Proof.Payloads
import proofs.«163850_j44152263803472_2_alg».proof.Proof.LowRankAlgebra
import Idealize.ShloMosaic.Lib.Pipeline.Value
import Idealize.ShloMosaic.Lib.ValueIdx

noncomputable section

namespace Cert.KernelIdeal.Accumulate

open Idealize.ShloMosaic Idealize.ShloMosaic.TcCoe Idealize.SL.Sem Idealize.ShloMosaic.ValueIdx
open Idealize.ShloMosaic.Pipeline (Dat)
open Cert.KernelIdeal Cert.KernelIdeal.Gen
open Cert.LowRank (band)

variable (m : (ℓ : Loc nD τ sig) → Buf (Elt Ideal) ℓ)

/-! ## Where a tile sits in its array -/

/-- The array row of row `p` of the tile of point `n` (wrapped, so that it is defined for every `n`). -/
def row (n : ℕ) (p : Fin 1024) : Fin 16384 := ⟨(1024 * (n / 16) + p.val) % 16384, Nat.mod_lt _ (by norm_num)⟩

/-- The array column of column `q` of the output tile of point `n`: a row of the folded weight. -/
def col (n : ℕ) (q : Fin 1024) : Fin 4096 := ⟨1024 * (n / 4 % 4) + q.val, by have := q.isLt; omega⟩

/-- The printed index maps in closed form, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activations' tile at a point, read in the array. -/
theorem acts_tile (c : Dev nD) (t : Fin cfg0.N) (p k : Fin 1024) :
    (iblk m c 0 t : Vec Ideal S1024x1024 .bf16) (ix2 p k)
      = (V m c main_v5 : S16384x4096.Idx → Elt Ideal .bf16) (ix2 (row t.val p) (band (t.val % 4) k)) := by
  obtain ⟨e0, e1, -⟩ := idx_facts t
  have hN : t.val < 256 := lt_of_lt_of_eq t.isLt (show cfg0.N = 256 from N_0)
  unfold iblk
  rw [View.read_apply]
  refine congrArg (V m c main_v5) (funext fun a => Fin.ext ?_)
  match a with
  | ⟨0, _⟩ =>
    show win0_0.index t (0 : Fin 2) * 1024 + 1 * p.val = (1024 * (t.val / 16) + p.val) % 16384
    rw [e0]; have := p.isLt; omega
  | ⟨1, _⟩ =>
    show win0_0.index t (1 : Fin 2) * 1024 + 1 * k.val = (1024 * (t.val % 4) + k.val) % 4096
    rw [e1]; have := k.isLt; omega

/-- The folded weight's tile at a point, read in the array. -/
theorem weight_tile (c : Dev nD) (t : Fin cfg0.N) (q k : Fin 1024) :
    (iblk m c 1 t : Vec Ideal S1024x1024 .bf16) (ix2 q k)
      = (V m c main_v6 : S4096x4096.Idx → Elt Ideal .bf16) (ix2 (col t.val q) (band (t.val % 4) k)) := by
  obtain ⟨-, -, e2, e3, -⟩ := idx_facts t
  unfold iblk
  rw [View.read_apply]
  refine congrArg (V m c main_v6) (funext fun a => Fin.ext ?_)
  match a with
  | ⟨0, _⟩ =>
    show win0_1.index t (0 : Fin 2) * 1024 + 1 * q.val = 1024 * (t.val / 4 % 4) + q.val
    rw [e2]; omega
  | ⟨1, _⟩ =>
    show win0_1.index t (1 : Fin 2) * 1024 + 1 * k.val = (1024 * (t.val % 4) + k.val) % 4096
    rw [e3]; have := k.isLt; omega

/-- The bias row's tile at a point, read in the array. -/
theorem bias_tile (c : Dev nD) (t : Fin cfg0.N) (q : Fin 1024) :
    (iblk m c 2 t : Vec Ideal S1x1024 .f32) (ix2 (0 : Fin 1) q)
      = (V m c main_v7 : S1x4096.Idx → Elt Ideal .f32) (ix2 (0 : Fin 1) (col t.val q)) := by
  obtain ⟨-, -, -, -, e4, e5, -⟩ := idx_facts t
  unfold iblk
  rw [View.read_apply]
  refine congrArg (V m c main_v7) (funext fun a => Fin.ext ?_)
  match a with
  | ⟨0, _⟩ =>
    show win0_2.index t (0 : Fin 2) * 1 + 1 * 0 = 0
    rw [e4]
  | ⟨1, _⟩ =>
    show win0_2.index t (1 : Fin 2) * 1024 + 1 * q.val = 1024 * (t.val / 4 % 4) + q.val
    rw [e5]; omega

/-! ## The partial sums -/

/-- Band `j` of row `r` of the activations against band `j` of row `cl` of the folded weight. -/
def bandDot (X : (⟨2, ![16384, 4096]⟩ : Shape).Idx → EReal) (Wf : (⟨2, ![4096, 4096]⟩ : Shape).Idx → EReal)
    (r : Fin 16384) (cl : Fin 4096) (j : ℕ) : EReal :=
  ∑ k : Fin 1024, X (ix2 r (band j k)) * Wf (ix2 cl (band j k))

/-- The running sum after band `j`, in the order the kernel adds. -/
def partialSum (X : (⟨2, ![16384, 4096]⟩ : Shape).Idx → EReal) (Wf : (⟨2, ![4096, 4096]⟩ : Shape).Idx → EReal)
    (r : Fin 16384) (cl : Fin 4096) : ℕ → EReal
  | 0 => 0 + bandDot X Wf r cl 0
  | j + 1 => partialSum X Wf r cl j + bandDot X Wf r cl (j + 1)

/-- The three tiles a point works on, as arrays of extended reals. -/
abbrev actsTile (c : Dev nD) (t : Fin cfg0.N) : Vec Ideal S1024x1024 .bf16 := iblk m c 0 t
abbrev weightTile (c : Dev nD) (t : Fin cfg0.N) : Vec Ideal S1024x1024 .bf16 := iblk m c 1 t
abbrev biasTile (c : Dev nD) (t : Fin cfg0.N) : Vec Ideal S1x1024 .f32 := iblk m c 2 t

/-- The two tiles' product at an entry is the band's product of the two array rows. -/
theorem tile_dot (c : Dev nD) (t : Fin cfg0.N) (p q : Fin 1024) :
    (∑ k : Fin 1024, actsTile m c t (ix2 p k) * weightTile m c t (ix2 q k))
      = bandDot (V m c main_v5) (V m c main_v6) (row t.val p) (col t.val q) (t.val % 4) :=
  Finset.sum_congr rfl fun k _ => congrArg₂ (fun a b : EReal => a * b) (acts_tile m c t p k) (weight_tile m c t q k)

/-- One band's update of an accumulator, at an entry. -/
theorem acc_step (c : Dev nD) (t : Fin cfg0.N) (prev : Vec Ideal S1024x1024 .f32) (p q : Fin 1024) :
    k0_pay2 (F := Ideal) (actsTile m c t) (weightTile m c t) prev (ix2 p q)
      = prev (ix2 p q) + bandDot (V m c main_v5) (V m c main_v6) (row t.val p) (col t.val q) (t.val % 4) :=
  (Payloads.update_apply (actsTile m c t) (weightTile m c t) prev p q).trans
    (congrArg (fun z : EReal => prev (ix2 p q) + z) (tile_dot m c t p q))

/-! ## What each kind of point leaves -/

theorem acc_at_A (c : Dev nD) (t : Fin cfg0.N) (h0 : t.val % 4 = 0) :
    (outsAt0 m c t.val t.isLt).2 = k0_pay2 (F := Ideal) (actsTile m c t) (weightTile m c t) (k0_pay1 (F := Ideal)) := by
  have h1 : ¬t.val % 4 = 3 := by omega
  rw [outsAt0_A m c t h0 h1]
  dsimp only
  exact Pieces.acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

theorem acc_at_B (c : Dev nD) (t : Fin cfg0.N) (h0 : ¬t.val % 4 = 0) (h1 : ¬t.val % 4 = 3) :
    (outsAt0 m c t.val t.isLt).2 = k0_pay2 (F := Ideal) (actsTile m c t) (weightTile m c t) (outsAt0 m c (t.val - 1) (Nat.lt_of_le_of_lt (Nat.sub_le _ _) t.isLt)).2 := by
  rw [outsAt0_B m c t h0 h1]
  dsimp only
  exact Pieces.acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

theorem acc_at_C (c : Dev nD) (t : Fin cfg0.N) (h0 : ¬t.val % 4 = 0) (h1 : t.val % 4 = 3) :
    (outsAt0 m c t.val t.isLt).2 = k0_pay2 (F := Ideal) (actsTile m c t) (weightTile m c t) (outsAt0 m c (t.val - 1) (Nat.lt_of_le_of_lt (Nat.sub_le _ _) t.isLt)).2 := by
  rw [outsAt0_C m c t h0 h1]
  dsimp only
  exact Pieces.acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

theorem out_at_C (c : Dev nD) (t : Fin cfg0.N) (h0 : ¬t.val % 4 = 0) (h1 : t.val % 4 = 3) :
    (outsAt0 m c t.val t.isLt).1
      = k0_pay3 (F := Ideal) (k0_pay2 (F := Ideal) (actsTile m c t) (weightTile m c t) (outsAt0 m c (t.val - 1) (Nat.lt_of_le_of_lt (Nat.sub_le _ _) t.isLt)).2) (biasTile m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-! ## The induction -/

/-- After point `n` the accumulator holds, at every entry, the partial sum up to band `n % 4`. -/
theorem acc_eq (c : Dev nD) : ∀ (n : ℕ) (hn : n < cfg0.N) (p q : Fin 1024),
    (outsAt0 m c n hn).2 (ix2 p q) = partialSum (V m c main_v5) (V m c main_v6) (row n p) (col n q) (n % 4)
  | 0, hn, p, q => by
    refine (congrFun (acc_at_A m c ⟨0, hn⟩ rfl) (ix2 p q)).trans ?_
    refine (acc_step m c ⟨0, hn⟩ _ p q).trans ?_
    rw [Payloads.reset_apply]
    rfl
  | n + 1, hn, p, q => by
    have hN : n + 1 < 256 := lt_of_lt_of_eq hn (show cfg0.N = 256 from N_0)
    by_cases h0 : (n + 1) % 4 = 0
    · refine (congrFun (acc_at_A m c ⟨n + 1, hn⟩ h0) (ix2 p q)).trans ?_
      refine (acc_step m c ⟨n + 1, hn⟩ _ p q).trans ?_
      rw [Payloads.reset_apply]
      show 0 + bandDot _ _ (row (n + 1) p) (col (n + 1) q) ((n + 1) % 4)
        = partialSum _ _ (row (n + 1) p) (col (n + 1) q) ((n + 1) % 4)
      rw [h0]
      rfl
    · have hprev : (outsAt0 m c (n + 1) hn).2 = k0_pay2 (F := Ideal) (actsTile m c ⟨n + 1, hn⟩) (weightTile m c ⟨n + 1, hn⟩)
          (outsAt0 m c n (Nat.lt_of_succ_lt hn)).2 := by
        by_cases h1 : (n + 1) % 4 = 3
        · exact acc_at_C m c ⟨n + 1, hn⟩ h0 h1
        · exact acc_at_B m c ⟨n + 1, hn⟩ h0 h1
      refine (congrFun hprev (ix2 p q)).trans ?_
      refine (acc_step m c ⟨n + 1, hn⟩ _ p q).trans ?_
      rw [acc_eq c n (Nat.lt_of_succ_lt hn) p q]
      have hr : row (n + 1) p = row n p := Fin.ext (by
        show (1024 * ((n + 1) / 16) + p.val) % 16384 = (1024 * (n / 16) + p.val) % 16384
        have : (n + 1) / 16 = n / 16 := by omega
        rw [this])
      have hc : col (n + 1) q = col n q := Fin.ext (by
        show 1024 * ((n + 1) / 4 % 4) + q.val = 1024 * (n / 4 % 4) + q.val
        have : (n + 1) / 4 = n / 4 := by omega
        rw [this])
      have hm : (n + 1) % 4 = n % 4 + 1 := by omega
      show partialSum _ _ (row n p) (col n q) (n % 4) + bandDot _ _ (row (n + 1) p) (col (n + 1) q) ((n + 1) % 4)
        = partialSum _ _ (row (n + 1) p) (col (n + 1) q) ((n + 1) % 4)
      rw [hr, hc, hm]
      rfl

/-- At a last band the output tile holds the whole chain plus the bias entry of the column. -/
theorem out_eq (c : Dev nD) (t : Fin cfg0.N) (h3 : t.val % 4 = 3) (y : S1024x1024.Idx) :
    (outsAt0 m c t.val t.isLt).1 y
      = partialSum (V m c main_v5) (V m c main_v6) (row t.val (y 0)) (col t.val (y 1)) 3
        + (V m c main_v7 : FVec Ideal S1x4096 .f32) (ix2 (0 : Fin 1) (col t.val (y 1))) := by
  have h0 : ¬t.val % 4 = 0 := by omega
  obtain ⟨p, q, rfl⟩ : ∃ (p q : Fin 1024), y = ix2 p q := ⟨y 0, y 1, eq_ix2 y⟩
  show _ = partialSum _ _ (row t.val p) (col t.val q) 3 + (V m c main_v7 : FVec Ideal S1x4096 .f32) (ix2 (0 : Fin 1) (col t.val q))
  refine (congrFun (out_at_C m c t h0 h3) (ix2 p q)).trans ?_
  refine (Payloads.finish_apply _ (biasTile m c t) p q).trans ?_
  refine congrArg₂ (fun a b : EReal => a + b) ?_ (bias_tile m c t q)
  refine (congrFun (acc_at_C m c t h0 h3).symm (ix2 p q)).trans ?_
  refine (acc_eq m c t.val t.isLt p q).trans ?_
  rw [h3]

/-- The whole chain of four bands is the product over all 4096 contracted positions. -/
theorem partialSum_three (X : (⟨2, ![16384, 4096]⟩ : Shape).Idx → EReal) (Wf : (⟨2, ![4096, 4096]⟩ : Shape).Idx → EReal)
    (r : Fin 16384) (cl : Fin 4096) :
    partialSum X Wf r cl 3 = ∑ k : Fin 4096, X (ix2 r k) * Wf (ix2 cl k) :=
  Cert.LowRank.chain_bands (fun k : Fin 4096 => X (ix2 r k) * Wf (ix2 cl k))

end Cert.KernelIdeal.Accumulate

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibHostDot.lean ====
/-
  The host's product of two matrices, read entry by entry.

  On the extended reals the host's `dot_general` of an [a, K] matrix with a [K, b] matrix that contracts the left
  operand's axis 1 with the right operand's axis 0 has at entry (p, q) the value  ∑ k < K, lhs (p, k) · rhs (k, q).

  The host's product and the matrix unit's product into the zero accumulator are, entry by entry, the same sum over
  the contracted positions (the accumulator's zero adds nothing), for any dimension numbers and any extents; the
  entry-by-entry reading of the matrix unit's product then carries over word for word. No finiteness is used: the
  two sides are the same sum of the same terms.
-/
import Idealize.ShloMosaic.PureOps.Ideal.Laws
import Idealize.ShloMosaic.Lib.ValueIdx
import proofs.«163850_j44152263803472_2_alg».proof.Proof.LibPlainDot

noncomputable section

namespace Idealize.ShloMosaic.HostDot

open Idealize.ShloMosaic Idealize.ShloMosaic.ValueIdx

/-- At every output index the host's product is the matrix unit's product into the zero accumulator: both are the
    sum, over the contracted positions, of the left operand's entry times the right operand's entry. -/
theorem dotGeneral_eq_matmul_zero {sl sr so : Shape} {φ₁ φ₂ : FTy} (d : DotDims sl sr so)
    (prec prec' : Option ContractPrecision) (sched : HostSchedule)
    (lhs : FVec Ideal sl φ₁) (rhs : FVec Ideal sr φ₂) (j : so.Idx) :
    FloatOps.dotGeneral d prec sched lhs rhs j
      = FloatOps.matmul d prec' lhs rhs (constant so .f32 0x00000000#32) j :=
  (Ideal.dotGeneral_apply d prec sched lhs rhs j).trans (Ideal.matmul_constant_zero_apply d prec' lhs rhs j).symm

/-- Entry (p, q) of the host's [a, K] × [K, b] product is the sum over the contracted position of the row's entry
    times the column's entry. The four facts about the dimension numbers are decided by unfolding for a literal
    record. -/
theorem dotGeneral_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision) (sched : HostSchedule)
    (lhs : FVec Ideal (⟨2, ![a, K]⟩ : Shape) φ₁) (rhs : FVec Ideal (⟨2, ![K, b]⟩ : Shape) φ₂) (p : Fin a) (q : Fin b) :
    FloatOps.dotGeneral d prec sched lhs rhs (ix2 p q) = ∑ k : Fin K, lhs (ix2 p k) * rhs (ix2 k q) :=
  (dotGeneral_eq_matmul_zero d prec prec sched lhs rhs (ix2 p q)).trans
    (PlainDot.matmul_zero_ix2 d hr hs hlc hrc hl0 hr1 prec lhs rhs p q)

end Idealize.ShloMosaic.HostDot

end
-- ==== Proof.Spec.lean ====
/-
  The two programs' results at one entry (b, s, o), as formulas over the five argument arrays, and why they agree.

  x : [4, 4096, 4096],  W : [4096, 4096],  β : [4096],  A : [8, 4096],  B : [4096, 8];  `one` is the float 1.0.

    kernel:      ∑ₖ x (b, s, k) · (W (o, k) + one · ∑ᵣ B (o, r) · A (r, k))  +  β (o)
                 — the low-rank update B·A is folded into the weight first, then one product over k;
    reference:   (∑ₖ x (b, s, k) · W (o, k) + β (o))  +  (∑ᵣ (∑ₖ x (b, s, k) · A (r, k)) · B (o, r)) · one
                 — the base layer, plus the row projected to rank 8 and expanded again.
  When every entry of the five arrays is real they are equal: the low-rank law.
-/
import proofs.«163850_j44152263803472_2_alg».proof.Proof.LowRankAlgebra
import Idealize.ShloMosaic.Lib.ValueIdx

noncomputable section

namespace Cert.LowRank

open Idealize.ShloMosaic Idealize.ShloMosaic.ValueIdx

/-- The float 1.0, as the extended real its word denotes. -/
abbrev one : EReal := Ideal.ofBits .f32 0x3F800000#32

theorem one_eq : one = 1 := by
  have h : ((8388608 : ℝ) * ((2 : ℝ) ^ 23)⁻¹ : ℝ) = 1 := by norm_num
  simp [one, Ideal.ofBits, Ideal.ieee]
  exact_mod_cast h

variable (x : (⟨3, ![4, 4096, 4096]⟩ : Shape).Idx → EReal) (W : (⟨2, ![4096, 4096]⟩ : Shape).Idx → EReal)
  (β : (⟨1, ![4096]⟩ : Shape).Idx → EReal) (A : (⟨2, ![8, 4096]⟩ : Shape).Idx → EReal) (B : (⟨2, ![4096, 8]⟩ : Shape).Idx → EReal)

/-- The folded weight: the base weight plus the scaled product of the two low-rank factors. -/
def foldedWeight (o k : Fin 4096) : EReal := W (ix2 o k) + one * ∑ r : Fin 8, B (ix2 o r) * A (ix2 r k)

/-- The kernel's result at (b, s, o). -/
def kernelEntry (b : Fin 4) (s o : Fin 4096) : EReal :=
  (∑ k : Fin 4096, x (ix3 b s k) * foldedWeight W A B o k) + β (ix1 o)

/-- The reference's result at (b, s, o). -/
def referenceEntry (b : Fin 4) (s o : Fin 4096) : EReal :=
  ((∑ k : Fin 4096, x (ix3 b s k) * W (ix2 o k)) + β (ix1 o))
    + (∑ r : Fin 8, (∑ k : Fin 4096, x (ix3 b s k) * A (ix2 r k)) * B (ix2 o r)) * one

/-- On real data the two results agree. -/
theorem entries_agree (hx : ∀ i, ∃ r : ℝ, x i = (r : EReal)) (hW : ∀ i, ∃ r : ℝ, W i = (r : EReal))
    (hβ : ∀ i, ∃ r : ℝ, β i = (r : EReal)) (hA : ∀ i, ∃ r : ℝ, A i = (r : EReal)) (hB : ∀ i, ∃ r : ℝ, B i = (r : EReal))
    (b : Fin 4) (s o : Fin 4096) : kernelEntry x W β A B b s o = referenceEntry x W β A B b s o := by
  choose xr hxr using hx
  choose Wr hWr using hW
  choose βr hβr using hβ
  choose Ar hAr using hA
  choose Br hBr using hB
  unfold kernelEntry referenceEntry foldedWeight
  simp only [hxr, hWr, hβr, hAr, hBr, one_eq]
  exact lowrank_law (fun k => xr (ix3 b s k)) (fun k => Wr (ix2 o k)) (fun r k => Ar (ix2 r k)) (fun r => Br (ix2 o r)) (βr (ix1 o))

end Cert.LowRank

end
-- ==== Proof.HostPrefix.lean ====
/-
  What the kernel's region finds in its three operand arrays, entry by entry.

  Before the region the host prepares:
    * the activations  X : [16384, 4096]:  x with its batch and sequence axes merged (row M is (M / 4096, M % 4096)),
      then a change of float format, which is the identity on the extended reals;
    * the folded weight  Wf : [4096, 4096]:  W + 1.0 · (B · A), the product of the [4096, 8] and [8, 4096] factors,
      then the same change of format;
    * the bias as one row [1, 4096].
-/
import proofs.«163850_j44152263803472_2_alg».proof.Proof.Gen.KernelIdeal.Frame
import proofs.«163850_j44152263803472_2_alg».proof.Proof.LibHostDot
import proofs.«163850_j44152263803472_2_alg».proof.Proof.Spec
import Idealize.ShloMosaic.Lib.Pipeline.Value
import Idealize.ShloMosaic.Lib.StableHlo.Run
import Idealize.ShloMosaic.Lib.ValueIdx

noncomputable section

namespace Cert.KernelIdeal.HostPrefix

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The five argument arrays on a core, as arrays of extended reals. -/
abbrev argX (c : Dev nD) : FVec Ideal S4x4096x4096 .f32 := m ((c : Thread nD τ).loc main_arg0)
abbrev argW (c : Dev nD) : FVec Ideal S4096x4096 .f32 := m ((c : Thread nD τ).loc main_arg1)
abbrev argBias (c : Dev nD) : FVec Ideal S4096 .f32 := m ((c : Thread nD τ).loc main_arg2)
abbrev argA (c : Dev nD) : FVec Ideal S8x4096 .f32 := m ((c : Thread nD τ).loc main_arg3)
abbrev argB (c : Dev nD) : FVec Ideal S4096x8 .f32 := m ((c : Thread nD τ).loc main_arg4)

/-- The activations as the region finds them: the reshape of x, its format changed. -/
theorem acts_eq (c : Dev nD) :
    (V m c main_v5 : FVec Ideal S16384x4096 .bf16)
      = truncf (F := Ideal) .bf16 (shapeCast S16384x4096 (argX m c) shapeCasts_S4x4096x4096_S16384x4096) bitsLt_bf16_f32 := by
  show StableHlo.after hostOps0 (fun b => m (c, b)) (Proc.devRef .tc main_v5) = _
  after_results
  all_goals rfl

/-- The folded weight as the region finds it. -/
theorem weight_eq (c : Dev nD) :
    (V m c main_v6 : FVec Ideal S4096x4096 .bf16)
      = truncf (F := Ideal) .bf16 (addf (argW m c)
          (mulf (broadcastInDim S4096x4096 ![] bcast_S_S4096x4096 (constant (F := Ideal) S_ .f32 0x3F800000#32))
            (Host.dotGeneral dot_S4096x8_S8x4096_S4096x4096_1_0_0_1_n_n none (argB m c) (argA m c))))
          bitsLt_bf16_f32 := by
  show StableHlo.after hostOps0 (fun b => m (c, b)) (Proc.devRef .tc main_v6) = _
  after_results
  all_goals rfl

/-- The bias row as the region finds it. -/
theorem bias_eq (c : Dev nD) :
    (V m c main_v7 : FVec Ideal S1x4096 .f32) = shapeCast S1x4096 (argBias m c) shapeCasts_S4096_S1x4096 := by
  show StableHlo.after hostOps0 (fun b => m (c, b)) (Proc.devRef .tc main_v7) = _
  after_results
  all_goals rfl

/-- Row M of the activations is row (M / 4096, M % 4096) of x. -/
theorem acts_apply (c : Dev nD) (b : Fin 4) (s : Fin 4096) (M : Fin 16384) (hM : M.val = b.val * 4096 + s.val) (k : Fin 4096) :
    (V m c main_v5 : FVec Ideal S16384x4096 .bf16) (ix2 M k) = argX m c (ix3 b s k) := by
  refine (congrFun (acts_eq m c) (ix2 M k)).trans ?_
  show shapeCast S16384x4096 (argX m c) shapeCasts_S4x4096x4096_S16384x4096 (ix2 M k) = _
  refine shapeCast_apply _ _ (ix2 M k) (ix3 b s k) ?_
  rw [Shape.rowMajor_val_two, Shape.rowMajor_val_three]
  show (b.val * 4096 + s.val) * 4096 + k.val = M.val * 4096 + k.val
  rw [hM]

theorem lhs_row (j : S4096x4096.Idx) (q : dot_S4096x8_S8x4096_S4096x4096_1_0_0_1_n_n.contr.Idx) :
    (dot_S4096x8_S8x4096_S4096x4096_1_0_0_1_n_n.lhsIdx j q 0).val = (j 0).val := by
  unfold DotDims.lhsIdx
  rw [dif_neg (show ¬(0 : Fin S4096x8.rank) ∈ dot_S4096x8_S8x4096_S4096x4096_1_0_0_1_n_n.lhsBatch by decide), dif_pos (show (0 : Fin S4096x8.rank) ∈ dot_S4096x8_S8x4096_S4096x4096_1_0_0_1_n_n.lhsNonContracting by decide)]
  rfl

theorem rhs_col (j : S4096x4096.Idx) (q : dot_S4096x8_S8x4096_S4096x4096_1_0_0_1_n_n.contr.Idx) :
    (dot_S4096x8_S8x4096_S4096x4096_1_0_0_1_n_n.rhsIdx j q 1).val = (j 1).val := by
  unfold DotDims.rhsIdx
  rw [dif_neg (show ¬(1 : Fin S8x4096.rank) ∈ dot_S4096x8_S8x4096_S4096x4096_1_0_0_1_n_n.rhsBatch by decide), dif_pos (show (1 : Fin S8x4096.rank) ∈ dot_S4096x8_S8x4096_S4096x4096_1_0_0_1_n_n.rhsNonContracting by decide)]
  rfl

/-- Entry (o, k) of the folded weight. -/
theorem weight_apply (c : Dev nD) (o k : Fin 4096) :
    (V m c main_v6 : FVec Ideal S4096x4096 .bf16) (ix2 o k)
      = Cert.LowRank.foldedWeight (argW m c) (argA m c) (argB m c) o k := by
  refine (congrFun (weight_eq m c) (ix2 o k)).trans ?_
  have key := HostDot.dotGeneral_ix2 dot_S4096x8_S8x4096_S4096x4096_1_0_0_1_n_n rfl rfl rfl rfl lhs_row rhs_col none .single
    (argB m c) (argA m c) o k
  unfold Cert.LowRank.foldedWeight
  rw [← key]
  rfl

/-- Entry o of the bias row. -/
theorem bias_apply (c : Dev nD) (o : Fin 4096) :
    (V m c main_v7 : FVec Ideal S1x4096 .f32) (ix2 (0 : Fin 1) o) = argBias m c (ix1 o) := by
  refine (congrFun (bias_eq m c) (ix2 (0 : Fin 1) o)).trans ?_
  refine shapeCast_apply _ _ (ix2 (0 : Fin 1) o) (ix1 o) ?_
  rw [Shape.rowMajor_val_two, Shape.rowMajor_val_one]
  show o.val = 0 * 4096 + o.val
  omega

end Cert.KernelIdeal.HostPrefix

end
-- ==== Proof.KernelArray.lean ====
/-
  From the output tiles to the kernel's result.

  The output [16384, 4096] is written tile by tile: the tile (i, j) is written back once, at the last band of its
  four points, and the 16 × 4 tiles cover the array. So the array ends holding, at (M, o), the whole chain of bands
  of row M of the activations against row o of the folded weight, plus the bias entry o. The host then splits the
  row axis back into batch and sequence: entry (b, s, o) of the result is entry (4096 · b + s, o) of that array.
  Reading the three operand arrays through what the host prepared gives the formula `kernelEntry` of the arguments.
-/
import proofs.«163850_j44152263803472_2_alg».proof.Proof.Accumulate
import proofs.«163850_j44152263803472_2_alg».proof.Proof.HostPrefix
import proofs.«163850_j44152263803472_2_alg».proof.Proof.Spec
import Idealize.ShloMosaic.Lib.Pipeline.Value
import Idealize.ShloMosaic.Lib.StableHlo.Run
import Idealize.ShloMosaic.Lib.ValueIdx

noncomputable section

namespace Cert.KernelIdeal.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulate Cert.KernelIdeal.HostPrefix

variable (m : (ℓ : Loc nD τ sig) → Buf (Elt Ideal) ℓ) (ρ : Dev nD → PrngReg)

/-- The output array as one function of the three operand arrays: the chain of the four bands plus the bias. -/
def chainPlusBias (X : (⟨2, ![16384, 4096]⟩ : Shape).Idx → EReal) (Wf : (⟨2, ![4096, 4096]⟩ : Shape).Idx → EReal)
    (Bv : (⟨2, ![1, 4096]⟩ : Shape).Idx → EReal) : (⟨2, ![16384, 4096]⟩ : Shape).Idx → EReal :=
  fun j => partialSum X Wf (j 0) (j 1) 3 + Bv (ix2 (0 : Fin 1) (j 1))

/-- The output array of the region on a core. -/
abbrev outArray (c : Dev nD) : FVec Ideal S16384x4096 .f32 :=
  chainPlusBias (V m c main_v5) (V m c main_v6) (V m c main_v7)

/-- What a last-band point writes back is its tile of `outArray`. -/
theorem flushed_eq (c : Dev nD) (t : Fin cfg0.N) (hf : (cfg0.win 3).flush t = true) :
    (dats m 0 c).flushed 3 t = ((cfg0.win 3).blk t).view.read (Elt Ideal) (outArray m c) := by
  have h3 : t.val % 4 = 3 := (flush0_3 t).mp hf
  have hN : t.val < 256 := lt_of_lt_of_eq t.isLt (show cfg0.N = 256 from N_0)
  obtain ⟨-, -, -, -, -, -, e6, e7⟩ := idx_facts t
  show (cfg0.win 3).cut (grid0.coords t) ((dats m 0 c).after 3 t) = _
  rw [after0_3]
  funext y
  show (outsAt0 m c t.val t.isLt).1 y = outArray m c (((cfg0.win 3).blk t).view.emb y)
  refine (out_eq m c t h3 y).trans ?_
  have e0 : (((cfg0.win 3).blk t).view.emb y) 0 = row t.val (y 0) := Fin.ext (by
    show win0_3.index t (0 : Fin 2) * 1024 + 1 * (y 0).val = (1024 * (t.val / 16) + (y 0).val) % 16384
    rw [e6]; have : (y 0).val < 1024 := (y 0).isLt; omega)
  have e1 : (((cfg0.win 3).blk t).view.emb y) 1 = col t.val (y 1) := Fin.ext (by
    show win0_3.index t (1 : Fin 2) * 1024 + 1 * (y 1).val = 1024 * (t.val / 4 % 4) + (y 1).val
    rw [e7]; omega)
  show _ = partialSum _ _ ((((cfg0.win 3).blk t).view.emb y) 0) ((((cfg0.win 3).blk t).view.emb y) 1) 3
    + (V m c main_v7 : FVec Ideal S1x4096 .f32) (ix2 (0 : Fin 1) ((((cfg0.win 3).blk t).view.emb y) 1))
  rw [e0, e1]

/-- An index of the array is in a point's tile iff each coordinate is in the tile's range on its axis. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- Every entry of the array is in the tile of some last-band point. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e6, e7⟩ := idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 1024 ≤ (i 1).val ∧ (i 1).val < win0_3.index t (1 : Fin 2) * 1024 + 1024
    rw [e7]; omega

/-- The output array after the region. -/
theorem final (c : Dev nD) : (dats m 0 c).arrAt 3 cfg0.N = outArray m c :=
  (dats m 0 c).arrAt_eq_of_cover 3 (outArray m c) (flushed_eq m c) cover

/-- The result buffer after the host's last line: the output array with its row axis split. -/
theorem result_eq (c : Dev nD) :
    Pipeline.afterTail₀ cfgs (dats m) 0 (V0 m) [hostOps1] c main_v9
      = shapeCast S4x4096x4096 (outArray m c) shapeCasts_S16384x4096_S4x4096x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = outArray m c :=
    (Pipeline.withArrays_arr spec0 launch0.win.arr_inj c _ _ 3).trans (final m c)
  funext i
  show shapeCast S4x4096x4096 (Pipeline.withArrays (cfgs 0).spec c (V0 m c) (fun w => (dats m 0 c).arrAt w (cfgs 0).N)
    (Proc.devRef .tc main_v8)) shapeCasts_S16384x4096_S4x4096x4096 i = _
  rw [e]

/-- THE KERNEL'S RUN, READ: every weakly fair execution terminates with the result buffer at the output array with its
    row axis split, and the five arguments as they were. -/
theorem run : θ_run defs (onTc (τ := τ) (main (F := Ideal))) ⟨m, fun _ => 0, ρ⟩ fun r => ∀ c : Dev nD,
      r.2.mem ((c : Thread nD τ).loc main_v9) = shapeCast S4x4096x4096 (outArray m c) shapeCasts_S16384x4096_S4x4096x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- THE KERNEL'S RESULT AT AN ENTRY is `kernelEntry` of the five arguments. -/
theorem result_apply (c : Dev nD) (b : Fin 4) (s o : Fin 4096) :
    shapeCast S4x4096x4096 (outArray m c) shapeCasts_S16384x4096_S4x4096x4096 (ix3 b s o)
      = Cert.LowRank.kernelEntry (argX m c) (argW m c) (argBias m c) (argA m c) (argB m c) b s o := by
  have hM : b.val * 4096 + s.val < 16384 := by have := b.isLt; have := s.isLt; omega
  refine (shapeCast_apply (outArray m c) shapeCasts_S16384x4096_S4x4096x4096 (ix3 b s o)
    (ix2 (⟨b.val * 4096 + s.val, hM⟩ : Fin 16384) o) ?_).trans ?_
  · rw [Shape.rowMajor_val_two, Shape.rowMajor_val_three]
    rfl
  · show partialSum _ _ (⟨b.val * 4096 + s.val, hM⟩ : Fin 16384) o 3
        + (V m c main_v7 : FVec Ideal S1x4096 .f32) (ix2 (0 : Fin 1) o) = _
    rw [partialSum_three, bias_apply]
    unfold Cert.LowRank.kernelEntry
    refine congrArg (fun z : EReal => z + argBias m c (ix1 o)) ?_
    exact Finset.sum_congr rfl fun k _ => congrArg₂ (fun a b : EReal => a * b)
      (acts_apply m c b s ⟨b.val * 4096 + s.val, hM⟩ rfl k) (weight_apply m c o k)

end Cert.KernelIdeal.KernelArray

end
-- ==== Proof.RefValue.lean ====
/-
  The reference program's result at one entry.

  The reference computes the base layer x·Wᵀ + β (a product over the 4096 input features, the bias repeated over
  the batch and sequence axes), projects x onto the 8 rows of A, expands that with B, scales by 1.0 and adds. Read
  one operation at a time at the entry (b, s, o) this is the formula `referenceEntry`.
-/
import proofs.«163850_j44152263803472_2_alg».proof.Proof.Gen.ReferenceIdeal.Read
import proofs.«163850_j44152263803472_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

variable (x : (⟨S4x4096x4096, .f32⟩ : BufTy).Contents (Elt Ideal)) (W : (⟨S4096x4096, .f32⟩ : BufTy).Contents (Elt Ideal))
  (β : (⟨S4096, .f32⟩ : BufTy).Contents (Elt Ideal)) (A : (⟨S8x4096, .f32⟩ : BufTy).Contents (Elt Ideal))
  (B : (⟨S4096x8, .f32⟩ : BufTy).Contents (Elt Ideal))

/-- The reference's result at (b, s, o) is `referenceEntry` of its arguments. -/
theorem result_apply (b : Fin 4) (s o : Fin 4096) :
    val_main_v8 (F := Ideal) x W β A B (ix3 b s o) = Cert.LowRank.referenceEntry x W β A B b s o := by
  have l0 : ∀ k : Fin 4096, lidx_main_v0 (ix3 b s o) k = ix3 b s k := fun k => funext fun a => by
    match a with | ⟨0, _⟩ => rfl | ⟨1, _⟩ => rfl | ⟨2, _⟩ => rfl
  have r0 : ∀ k : Fin 4096, ridx_main_v0 (ix3 b s o) k = ix2 o k := fun k => funext fun a => by
    match a with | ⟨0, _⟩ => rfl | ⟨1, _⟩ => rfl
  have i1 : idx_main_v1 (idx_main_v2 (ix3 b s o)) = ix1 o := funext fun a => by
    match a with | ⟨0, _⟩ => rfl
  have l5 : ∀ r : Fin 8, lidx_main_v5 (ix3 b s o) r = ix3 b s r := fun r => funext fun a => by
    match a with | ⟨0, _⟩ => rfl | ⟨1, _⟩ => rfl | ⟨2, _⟩ => rfl
  have r5 : ∀ r : Fin 8, ridx_main_v5 (ix3 b s o) r = ix2 o r := fun r => funext fun a => by
    match a with | ⟨0, _⟩ => rfl | ⟨1, _⟩ => rfl
  have l4 : ∀ (r : Fin 8) (k : Fin 4096), lidx_main_v4 (ix3 b s r) k = ix3 b s k := fun r k => funext fun a => by
    match a with | ⟨0, _⟩ => rfl | ⟨1, _⟩ => rfl | ⟨2, _⟩ => rfl
  have r4 : ∀ (r : Fin 8) (k : Fin 4096), ridx_main_v4 (ix3 b s r) k = ix2 r k := fun r k => funext fun a => by
    match a with | ⟨0, _⟩ => rfl | ⟨1, _⟩ => rfl
  rw [val_main_v8_apply, val_main_v3_apply, val_main_v0_apply, val_main_v2_apply, val_main_v1_apply, val_main_v7_apply,
    val_main_v5_apply, val_main_v6_apply, val_main_cst_apply]
  simp only [val_main_v4_apply, l0, r0, i1, l5, r5, l4, r4, Ideal.addf_def, Ideal.mulf_def, Ideal.ofBits_def]
  rfl

end Cert.ReferenceIdeal.RefValue

end
-- ==== Proof.FiniteInputs.lean ====
/-
  What the precondition says: every entry of every input array is a real number.

  The precondition computes, for each of the five input arrays, whether |entry| < +∞ holds at every entry, and
  conjoins the five answers. On the extended reals |x| is max x (−x), which is +∞ exactly at the two infinities, so
  an entry that passes the test is the image of a real number. The low-rank law (distributivity) is only true
  there: this is where the claim's hypothesis is used.
-/
import proofs.«163850_j44152263803472_2_alg».proof.Pre_finite_inputs
import proofs.«163850_j44152263803472_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Idealize.ShloMosaic.ValueIdx
open Cert.Pre_finite_inputs Cert.Pre_finite_inputs.Gen

instance : Subsingleton S_.Idx := ⟨fun a b => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec
  · exfalso; simp [Ideal.cmp] at h
  · exact ⟨_, rfl⟩
  · exfalso; simp [Ideal.cmp] at h

/-- One array's test: if "all entries have absolute value below +∞" answers 1, every entry is real. -/
theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) :=
  real_of_abs_lt_top (x i) (Host.reduce_andi_all _ _ hr hu ix0 h i)

/-- The precondition, decoded: all five input arrays hold real numbers. -/
theorem real_of_pre (a0 : FVec Ideal S4x4096x4096 .f32) (a1 : FVec Ideal S4096x4096 .f32) (a2 : FVec Ideal S4096 .f32)
    (a3 : FVec Ideal S8x4096 .f32) (a4 : FVec Ideal S4096x8 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨all_real a0 _ _ _ e0, all_real a1 _ _ _ e1, all_real a2 _ _ _ e2, all_real a3 _ _ _ e3, all_real a4 _ _ _ e4⟩

end Cert.FiniteInputs

end
-- ==== Proof.Bridge.lean ====
/-
  The two programs' results are one array.

  Entry by entry the reference's result is `referenceEntry` and the kernel's is `kernelEntry` of the same five
  arguments; the precondition makes every entry of the arguments real, and on real data the two formulas agree by
  the low-rank law.
-/
import proofs.«163850_j44152263803472_2_alg».proof.Proof.KernelArray
import proofs.«163850_j44152263803472_2_alg».proof.Proof.RefValue
import proofs.«163850_j44152263803472_2_alg».proof.Proof.FiniteInputs
import proofs.«163850_j44152263803472_2_alg».proof.Proof.Spec

noncomputable section

namespace Cert.Bridge

open Idealize.ShloMosaic Idealize.ShloMosaic.TcCoe Idealize.SL.Sem Idealize.ShloMosaic.ValueIdx
open Cert.KernelIdeal Cert.KernelIdeal.Gen Cert.KernelIdeal.HostPrefix Cert.KernelIdeal.KernelArray

variable (m : (ℓ : Loc nD τ sig) → Buf (Elt Ideal) ℓ)

/-- Under the precondition, the reference's result of the arguments is the kernel's result array. -/
theorem results_agree (c : Dev nD)
    (hpre : Cert.Pre_finite_inputs.fn (F := Ideal) (argX m c) (argW m c) (argBias m c) (argA m c) (argB m c) = fun _ => 1#1) :
    Cert.ReferenceIdeal.Read.val_main_v8 (F := Ideal) (argX m c) (argW m c) (argBias m c) (argA m c) (argB m c)
      = shapeCast S4x4096x4096 (outArray m c) shapeCasts_S16384x4096_S4x4096x4096 := by
  obtain ⟨hx, hW, hβ, hA, hB⟩ := Cert.FiniteInputs.real_of_pre _ _ _ _ _ hpre
  funext i
  obtain ⟨b, s, o, rfl⟩ : ∃ (b : Fin 4) (s o : Fin 4096), i = ix3 b s o := ⟨i 0, i 1, i 2, eq_ix3 i⟩
  rw [Cert.ReferenceIdeal.RefValue.result_apply, Cert.KernelIdeal.KernelArray.result_apply]
  exact (Cert.LowRank.entries_agree _ _ _ _ _ hx hW hβ hA hB b s o).symm

end Cert.Bridge

end
-- ==== Proof.lean ====
/-
  A linear layer with a rank-8 additive update, tiled on the matrix unit, against its plain formulation.

  Arguments: x : [4, 4096, 4096], W : [4096, 4096], β : [4096], A : [8, 4096], B : [4096, 8].

  The kernel folds the update into the weight first, Wf = W + 1.0 · (B · A), merges the batch and sequence axes of x,
  and computes x · Wfᵀ + β tile by tile: the output tile (i, j) accumulates, over the four bands of 1024 contracted
  positions, the product of row tile i of x with row tile j of Wf in a scratch accumulator that starts at zero, and
  at the last band adds the bias row and is written back; the row axis is then split again.
  The reference computes (x · Wᵀ + β) + ((x · Aᵀ) · Bᵀ) · 1.0.

  On the extended reals a change of float format is the identity and the matrix unit's product is the exact sum,
  so the kernel's entry (b, s, o) is  ∑ₖ x(b,s,k) · (W(o,k) + 1 · ∑ᵣ B(o,r) · A(r,k)) + β(o)  — the four bands summed
  in order are the whole sum, a regrouping that needs no finiteness —, and the reference's is
  (∑ₖ x(b,s,k) · W(o,k) + β(o)) + (∑ᵣ (∑ₖ x(b,s,k) · A(r,k)) · B(o,r)) · 1.  They agree by distributivity and an
  exchange of two finite sums, which hold because the precondition makes every argument entry a real number.

  The three programs' runs (termination, no fault, arguments unchanged) are the generated frames; the ideal pass
  rewrote nothing, so the kernel's idealization is its own text.
-/
import proofs.«163850_j44152263803472_2_alg».proof.Defs
import proofs.«163850_j44152263803472_2_alg».proof.Proof.Gen.Kernel
import proofs.«163850_j44152263803472_2_alg».proof.Proof.Gen.Kernel.Skeleton
import proofs.«163850_j44152263803472_2_alg».proof.Proof.Gen.Kernel.Launch
import proofs.«163850_j44152263803472_2_alg».proof.Proof.Gen.Kernel.Points
import proofs.«163850_j44152263803472_2_alg».proof.Proof.Gen.Kernel.Frame
import proofs.«163850_j44152263803472_2_alg».proof.Proof.Gen.KernelIdeal
import proofs.«163850_j44152263803472_2_alg».proof.Proof.Gen.KernelIdeal.Skeleton
import proofs.«163850_j44152263803472_2_alg».proof.Proof.Gen.KernelIdeal.Launch
import proofs.«163850_j44152263803472_2_alg».proof.Proof.Gen.KernelIdeal.Points
import proofs.«163850_j44152263803472_2_alg».proof.Proof.Gen.KernelIdeal.Frame
import proofs.«163850_j44152263803472_2_alg».proof.Proof.Gen.ReferenceIdeal
import proofs.«163850_j44152263803472_2_alg».proof.Proof.Gen.Pre_finite_inputs
import proofs.«163850_j44152263803472_2_alg».proof.Proof.Gen.ReferenceIdeal.Run
import proofs.«163850_j44152263803472_2_alg».proof.Proof.Gen.ReferenceIdeal.Read
import proofs.«163850_j44152263803472_2_alg».proof.Proof.KernelArray
import proofs.«163850_j44152263803472_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories that agree on the five arguments, the kernel's result array and the
    reference's are equal: both runs end, the kernel's at its output array with the row axis split, the reference's
    at its composed term, and under the precondition these are one array. -/
theorem algebraic : Cert.algebraic_KernelIdeal_ReferenceIdeal := by
  intro m ρ m' ρ' hpre hagree
  refine ⟨fun c => shapeCast Cert.KernelIdeal.S4x4096x4096 (Cert.KernelIdeal.KernelArray.outArray m c)
      Cert.KernelIdeal.Gen.shapeCasts_S16384x4096_S4x4096x4096,
    Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  exact Cert.Bridge.results_agree m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
